-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  main_v8
-- ==== Kernel.lean ====
abbrev S4000000x4 : Shape := ⟨2, ![4000000, 4]⟩
abbrev S4000000x3 : Shape := ⟨2, ![4000000, 3]⟩
abbrev S4000000x9 : Shape := ⟨2, ![4000000, 9]⟩
abbrev S100000x4 : Shape := ⟨2, ![100000, 4]⟩
abbrev S100000x3 : Shape := ⟨2, ![100000, 3]⟩
abbrev S100000x9 : Shape := ⟨2, ![100000, 9]⟩
abbrev S100000 : Shape := ⟨1, ![100000]⟩
abbrev S100000x1 : Shape := ⟨2, ![100000, 1]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x9, .f32⟩
  | .hbm, ⟨3, _⟩ => ⟨S4000000x3x3, .f32⟩
  | .local _ .vmem, ⟨0, _⟩ => ⟨S100000x4, .f32⟩
  | .local _ .vmem, ⟨1, _⟩ => ⟨S100000x4, .f32⟩
  | .local _ .vmem, ⟨2, _⟩ => ⟨S100000x3, .f32⟩
  | .local _ .vmem, ⟨3, _⟩ => ⟨S100000x3, .f32⟩
  | .local _ .vmem, ⟨4, _⟩ => ⟨S100000x9, .f32⟩
  | .local _ .vmem, ⟨5, _⟩ => ⟨S100000x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S100000x4_S100000x4_0_0 : ∀ a, (![0, 0] : Fin 2 → Nat) a + S100000x4.size a ≤ S100000x4.size a
  h_S100000x4 : 0 < S100000x4.numel
  inb_S100000x3_S100000x3_0_0 : ∀ a, (![0, 0] : Fin 2 → Nat) a + S100000x3.size a ≤ S100000x3.size a
  h_S100000x3 : 0 < S100000x3.numel
  reduces_S100000x4_S100000 : S100000x4.Reduces [1] S100000
  shapeCasts_S100000_S100000x1 : S100000.ShapeCasts S100000x1
  broadcasts_S100000x1_S100000x4 : S100000x1.Broadcasts S100000x4
  slices_S100000x4_o0_0_S100000x1 : S100000x4.Slices ![0, 0] S100000x1
  shapeCasts_S100000x1_S100000 : S100000x1.ShapeCasts S100000
  slices_S100000x4_o0_1_S100000x1 : S100000x4.Slices ![0, 1] S100000x1
  slices_S100000x4_o0_2_S100000x1 : S100000x4.Slices ![0, 2] S100000x1
  slices_S100000x4_o0_3_S100000x1 : S100000x4.Slices ![0, 3] S100000x1
  slices_S100000x3_o0_0_S100000x1 : S100000x3.Slices ![0, 0] S100000x1
  slices_S100000x3_o0_1_S100000x1 : S100000x3.Slices ![0, 1] S100000x1
  slices_S100000x3_o0_2_S100000x1 : S100000x3.Slices ![0, 2] S100000x1
  concatenates_S100000x1_S100000x1_S100000x1_S100000x1_S100000x1_S100000x1_S100000x1_S100000x1_S100000x1_S100000x9_d1 : Shape.Concatenates [S100000x1, S100000x1, S100000x1, S100000x1, S100000x1, S100000x1, S100000x1, S100000x1, S100000x1] S100000x9 1
  inb_S100000x9_S100000x9_0_0 : ∀ a, (![0, 0] : Fin 2 → Nat) a + S100000x9.size a ≤ S100000x9.size a
  h_S100000x9 : 0 < S100000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x4.size a ≤ S4000000x4.size a
  hwx0_0 : ∀ i : grid0.Coords, EltTy.bits .f32 = 32 ∨ (Rect.block (s := S4000000x4) S100000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x3.size a ≤ S4000000x3.size a
  hwx0_1 : ∀ i : grid0.Coords, EltTy.bits .f32 = 32 ∨ (Rect.block (s := S4000000x3) S100000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100000x9.size a ≤ S4000000x9.size a
  hwx0_2 : ∀ i : grid0.Coords, EltTy.bits .f32 = 32 ∨ (Rect.block (s := S4000000x9) S100000x9.size (cc0_transform_2 i) (hinb0_2 i)).WholeWords (EltTy.packing .f32)

variable [Facts₀]

abbrev win0_0 : Pipeline.Window sig grid0 :=
  Pipeline.Window.ofSpec (Memref.whole main_arg0) S100000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S100000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩

abbrev nBuf : Space → Nat
  | .hbm => 104
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S_, .f32⟩
  | .hbm, ⟨8, _⟩ => ⟨S4000000x1, .f32⟩
  | .hbm, ⟨9, _⟩ => ⟨S4000000x1, .f32⟩
  | .hbm, ⟨10, _⟩ => ⟨S4000000x4, .f32⟩
  | .hbm, ⟨11, _⟩ => ⟨S4000000x4, .f32⟩
  | .hbm, ⟨12, _⟩ => ⟨S4000000x1, .f32⟩
  | .hbm, ⟨13, _⟩ => ⟨S4000000, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S_, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000x1, .f32⟩
  | .hbm, ⟨42, _⟩ => ⟨S4000000x1, .f32⟩
  | .hbm, ⟨43, _⟩ => ⟨S4000000x1, .f32⟩
  | .hbm, ⟨44, _⟩ => ⟨S4000000x3, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S_, .f32⟩
  | .hbm, ⟨64, _⟩ => ⟨S4000000, .f32⟩
  | .hbm, ⟨65, _⟩ => ⟨S4000000, .f32⟩
  | .hbm, ⟨66, _⟩ => ⟨S4000000x1, .f32⟩
  | .hbm, ⟨67, _⟩ => ⟨S4000000x1, .f32⟩
  | .hbm, ⟨68, _⟩ => ⟨S4000000x1, .f32⟩
  | .hbm, ⟨69, _⟩ => ⟨S4000000x3, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S_, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S4000000, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S4000000, .f32⟩
  | .hbm, ⟨83, _⟩ => ⟨S4000000, .f32⟩
  | .hbm, ⟨84, _⟩ => ⟨S4000000, .f32⟩
  | .hbm, ⟨85, _⟩ => ⟨S_, .f32⟩
  | .hbm, ⟨86, _⟩ => ⟨S4000000, .f32⟩
  | .hbm, ⟨87, _⟩ => ⟨S4000000, .f32⟩
  | .hbm, ⟨88, _⟩ => ⟨S_, .f32⟩
  | .hbm, ⟨89, _⟩ => ⟨S4000000, .f32⟩
  | .hbm, ⟨90, _⟩ => ⟨S4000000, .f32⟩
  | .hbm, ⟨91, _⟩ => ⟨S4000000x1, .f32⟩
  | .hbm, ⟨92, _⟩ => ⟨S4000000x1, .f32⟩
  | .hbm, ⟨93, _⟩ => ⟨S4000000x1, .f32⟩
  | .hbm, ⟨94, _⟩ => ⟨S4000000x3, .f32⟩
  | .hbm, ⟨95, _⟩ => ⟨S4000000x1x3, .f32⟩
  | .hbm, ⟨96, _⟩ => ⟨S4000000x1x3, .f32⟩
  | .hbm, ⟨97, _⟩ => ⟨S4000000x1x3, .f32⟩
  | .hbm, ⟨98, _⟩ => ⟨S4000000x3x3, .f32⟩
  | .hbm, ⟨99, _⟩ => ⟨S4000000x3, .f32⟩
  | .hbm, ⟨100, _⟩ => ⟨S4000000x1x3, .f32⟩
  | .hbm, ⟨101, _⟩ => ⟨S4000000x3x3, .f32⟩
  | .hbm, ⟨102, _⟩ => ⟨S4000000x3x3, .f32⟩
  | .hbm, ⟨103, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_8 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_9 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_10 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_11 : Ref sig .tc := ⟨.hbm, 85, rfl⟩
abbrev main_v71 : Ref sig .tc := ⟨.hbm, 86, rfl⟩
abbrev main_v72 : Ref sig .tc := ⟨.hbm, 87, rfl⟩
abbrev main_cst_12 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.CovSpec.lean ====
/-
  The covariance of a scaled rotation, one row at a time.

  A row r = (r₀, r₁, r₂, r₃) is normalized to the quaternion q = r / max(‖r‖, ε) = (w, x, y, z), with
  ‖r‖ = √(r₀² + r₁² + r₂² + r₃²); R(q) is the 3×3 matrix of the quaternion, entry by entry
      1 - 2(y² + z²)   2(xy - wz)       2(xz + wy)
      2(xy + wz)       1 - 2(x² + z²)   2(yz - wx)
      2(xz - wy)       2(yz + wx)       1 - 2(x² + y²);
  the scales are e = exp σ for a row σ = (σ₀, σ₁, σ₂), and the covariance is Σ = M Mᵀ for M = R · diag e:
      Σ_ik = ∑_j (R_ij e_j)(R_kj e_j).
  Pulling the squared scale out of each term, Σ_ik = ∑_j (R_ij R_kj)(e_j e_j), uses only that the product is
  commutative and associative, which holds on all of the extended reals: no entry need be finite. In that
  form Σ is visibly symmetric, so the nine entries are six.
-/
import Idealize.ShloMosaic.PureOps.Ideal
import Idealize.ShloMosaic.PureOps.Ideal.Laws
import Idealize.ShloMosaic.Lib.ValueIdx

noncomputable section

open scoped BigOperators

namespace Cert.Cov3d

open Idealize.ShloMosaic Idealize.ShloMosaic.ValueIdx

/-- The floor under the norm, the number the pattern 0x2B8CBCCC denotes (about 10⁻¹²). -/
abbrev eps : EReal := Ideal.ofBits .f32 0x2B8CBCCC#32
/-- The number the pattern 0x40000000 denotes (two). -/
abbrev two : EReal := Ideal.ofBits .f32 0x40000000#32
/-- The number the pattern 0x3F800000 denotes (one). -/
abbrev one : EReal := Ideal.ofBits .f32 0x3F800000#32

/-- The norm of a row of four, floored at ε. -/
def flooredNorm (r : Fin 4 → EReal) : EReal := max (Ideal.sqrt (∑ k : Fin 4, r k * r k)) eps

/-- One component of the normalized row. -/
def quat (r : Fin 4 → EReal) (a : Fin 4) : EReal := Ideal.div (r a) (flooredNorm r)

/-- The matrix of the quaternion (w, x, y, z). -/
def rotOfQuat (w x y z : EReal) : Fin 3 → Fin 3 → EReal :=
  ![![one - two * (y * y + z * z), two * (x * y - w * z), two * (x * z + w * y)],
    ![two * (x * y + w * z), one - two * (x * x + z * z), two * (y * z - w * x)],
    ![two * (x * z - w * y), two * (y * z + w * x), one - two * (x * x + y * y)]]

/-- The matrix of a row of four: that of its normalization. -/
def rotOf (r : Fin 4 → EReal) : Fin 3 → Fin 3 → EReal :=
  rotOfQuat (quat r 0) (quat r 1) (quat r 2) (quat r 3)

/-- Entry (i, k) of M Mᵀ for M = R · diag e. -/
def gram (R : Fin 3 → Fin 3 → EReal) (e : Fin 3 → EReal) (i k : Fin 3) : EReal :=
  ∑ j : Fin 3, (R i j * e j) * (R k j * e j)

/-- The same entry with each squared scale pulled out of its term. -/
def gramSq (R : Fin 3 → Fin 3 → EReal) (e : Fin 3 → EReal) (i k : Fin 3) : EReal :=
  R i 0 * R k 0 * (e 0 * e 0) + R i 1 * R k 1 * (e 1 * e 1) + R i 2 * R k 2 * (e 2 * e 2)

/-- The two forms agree on all extended reals: (a·s)(b·s) = (a·b)(s·s) term by term. -/
theorem gram_eq_gramSq (R : Fin 3 → Fin 3 → EReal) (e : Fin 3 → EReal) (i k : Fin 3) :
    gram R e i k = gramSq R e i k := by
  unfold gram gramSq
  rw [Fin.sum_univ_three, mul_mul_mul_comm (R i 0) (e 0) (R k 0) (e 0),
    mul_mul_mul_comm (R i 1) (e 1) (R k 1) (e 1), mul_mul_mul_comm (R i 2) (e 2) (R k 2) (e 2)]

/-- The pulled-out form is symmetric in (i, k). -/
theorem gramSq_symm (R : Fin 3 → Fin 3 → EReal) (e : Fin 3 → EReal) (i k : Fin 3) :
    gramSq R e i k = gramSq R e k i := by
  unfold gramSq
  rw [mul_comm (R i 0) (R k 0), mul_comm (R i 1) (R k 1), mul_comm (R i 2) (R k 2)]

/-- The covariance entry (i, k) of a row of four and a row of three log-scales. -/
def covRow (r : Fin 4 → EReal) (σ : Fin 3 → EReal) (i k : Fin 3) : EReal :=
  gramSq (rotOf r) (fun j => Ideal.exp (σ j)) i k

/-- The covariance as ONE function of the two argument arrays: entry (n, i, k) is the covariance entry (i, k) of
    row n of the rotations and row n of the log-scales. -/
def covAt {N : Nat} (rot : (⟨2, ![N, 4]⟩ : Shape).Idx → EReal) (sc : (⟨2, ![N, 3]⟩ : Shape).Idx → EReal)
    (n : Fin N) (i k : Fin 3) : EReal :=
  covRow (fun a => rot (ix2 n a)) (fun j => sc (ix2 n j)) i k

/-- The result array [4000000, 3, 3]. -/
def G (rot : (⟨2, ![4000000, 4]⟩ : Shape).Idx → EReal) (sc : (⟨2, ![4000000, 3]⟩ : Shape).Idx → EReal) :
    (⟨3, ![4000000, 3, 3]⟩ : Shape).Idx → EReal :=
  fun j => covAt rot sc (j 0) (j 1) (j 2)

theorem G_ix3 (rot : (⟨2, ![4000000, 4]⟩ : Shape).Idx → EReal) (sc : (⟨2, ![4000000, 3]⟩ : Shape).Idx → EReal)
    (n : Fin 4000000) (i k : Fin 3) : G rot sc (ix3 n i k) = covAt rot sc n i k := rfl

/-- The same entries laid out nine to a row, [4000000, 9]: column c holds entry (c / 3, c % 3). -/
def G9 (rot : (⟨2, ![4000000, 4]⟩ : Shape).Idx → EReal) (sc : (⟨2, ![4000000, 3]⟩ : Shape).Idx → EReal) :
    (⟨2, ![4000000, 9]⟩ : Shape).Idx → EReal :=
  fun j => covAt rot sc (j 0) ⟨(j 1).val / 3, by have h : (j 1).val < 9 := (j 1).isLt; show (j 1).val / 3 < 3; omega⟩
    ⟨(j 1).val % 3, Nat.mod_lt _ (by decide)⟩

end Cert.Cov3d

end
-- ==== Proof.RowOps.lean ====
/-
  Elementwise steps read at one index.

  Dividing by a broadcast column, and flooring a root at a constant, are elementwise: at an index the result is
  the scalar operation of the operands' elements there. Each lemma takes the operands' elements as hypotheses,
  so that a proof supplies them from whatever layout the operands have. The device's forms and the host's forms
  of the operations are the same functions on the extended reals.
-/
import Idealize.ShloMosaic.PureOps.Ideal
import Idealize.ShloMosaic.PureOps.Ideal.Laws
import Idealize.ShloMosaic.Lib.ValueIdx

noncomputable section

namespace Cert.Cov3d

open Idealize.ShloMosaic Idealize.ShloMosaic.ValueIdx

variable {s : Shape}

/-- A quotient at an index, the divisor's element given. -/
theorem div_at (x d : FVec Ideal s .f32) (i : s.Idx) (c : EReal) (hd : d i = c) :
    divf x d i = Ideal.div (x i) c := by subst hd; rfl

/-- The host's quotient at an index, the divisor's element given. -/
theorem hostDiv_at (x d : FVec Ideal s .f32) (i : s.Idx) (c : EReal) (hd : d i = c) :
    Host.divf x d i = Ideal.div (x i) c := by subst hd; rfl

/-- A root floored at a second operand, at an index, both elements given. -/
theorem maxSqrt_at (t e : FVec Ideal s .f32) (i : s.Idx) (a b : EReal) (ht : t i = a) (he : e i = b) :
    maximumf (sqrt t) e i = max (Ideal.sqrt a) b := by subst ht he; rfl

/-- The host's root floored at a second operand, at an index, both elements given. -/
theorem hostMaxSqrt_at (t e : FVec Ideal s .f32) (i : s.Idx) (a b : EReal) (ht : t i = a) (he : e i = b) :
    maximumf (Host.sqrt t) e i = max (Ideal.sqrt a) b := by subst ht he; rfl

/-- A product at an index, both elements given. -/
theorem mul_at (x y : FVec Ideal s .f32) (i : s.Idx) (a b : EReal) (hx : x i = a) (hy : y i = b) :
    mulf x y i = a * b := by subst hx hy; rfl

/-- An exponential at an index, the element given. -/
theorem exp_at (x : FVec Ideal s .f32) (i : s.Idx) (a : EReal) (hx : x i = a) : exp x i = Ideal.exp a := by
  subst hx; rfl

/-- The host's exponential at an index, the element given. -/
theorem hostExp_at (x : FVec Ideal s .f32) (i : s.Idx) (a : EReal) (hx : x i = a) : Host.exp x i = Ideal.exp a := by
  subst hx; rfl

end Cert.Cov3d

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibColumns.lean ====
/-
  Columns of a matrix, read at an index.

  A matrix [a, b] is cut into columns [a, 1] by unit-width slices, a column is flattened to a vector [a], and
  columns are joined side by side into a matrix again; one axis up, slabs [a, 1, c] are stacked along the middle
  axis into [a, b, c]. Each lemma reads one of these steps at an index given by its coordinates, for any extents
  and any element type: flattening a column keeps its rows, a unit-width slice at offset o is column o, and the
  piece of a side-by-side join of unit-width pieces that holds coordinate q of the joined axis is piece q.
-/
import Idealize.ShloMosaic.Lib.Pipeline.Value
import Idealize.ShloMosaic.Lib.ValueIdx

noncomputable section

namespace Cert.Lib.Columns

open Idealize.ShloMosaic Idealize.ShloMosaic.ValueIdx

variable {α : Type}

/-- A column flattened [a, 1] → [a]: element p of the vector is row p of the column. -/
theorem colAsVec_apply {a : Nat} (col : (⟨2, ![a, 1]⟩ : Shape).Idx → α)
    (h : (⟨2, ![a, 1]⟩ : Shape).ShapeCasts ⟨1, ![a]⟩) (p : Fin a) :
    shapeCast ⟨1, ![a]⟩ col h (ix1 p) = col (ix2 p (0 : Fin 1)) := by
  refine shapeCast_apply col h (ix1 p) (ix2 p (0 : Fin 1)) ?_
  rw [Shape.rowMajor_val_one, Shape.rowMajor_val_two]
  show p.val * 1 + 0 = p.val
  omega

/-- The unit-width slice of a matrix [a, b] at column offset o: row p of it is entry (p, o) of the matrix. -/
theorem sliceCol_apply {a b : Nat} (o : Nat) (X : (⟨2, ![a, b]⟩ : Shape).Idx → α)
    (h : (⟨2, ![a, b]⟩ : Shape).Slices ![0, o] ⟨2, ![a, 1]⟩) (p : Fin a) (q : Fin b) (hq : q.val = o) :
    extractStridedSlice ⟨2, ![a, 1]⟩ ![0, o] X h (ix2 p (0 : Fin 1)) = X (ix2 p q) :=
  extractStridedSlice_apply _ _ _ _ _ (fun ax => by
    match ax with
    | ⟨0, _⟩ => exact (Nat.zero_add _).symm
    | ⟨1, _⟩ => show q.val = o + 0; omega)

/-- Column o of a matrix as a vector: element p is entry (p, o). -/
theorem colVec_apply {a b : Nat} (o : Nat) (X : (⟨2, ![a, b]⟩ : Shape).Idx → α)
    (h : (⟨2, ![a, b]⟩ : Shape).Slices ![0, o] ⟨2, ![a, 1]⟩)
    (hc : (⟨2, ![a, 1]⟩ : Shape).ShapeCasts ⟨1, ![a]⟩) (p : Fin a) (q : Fin b) (hq : q.val = o) :
    shapeCast ⟨1, ![a]⟩ (extractStridedSlice ⟨2, ![a, 1]⟩ ![0, o] X h) hc (ix1 p) = X (ix2 p q) :=
  (colAsVec_apply _ hc p).trans (sliceCol_apply o X h p q hq)

/-- Columns joined side by side into a matrix [a, b]: entry (p, q) is row p of the piece at position q, when every
    piece before it has width one (the widths before position q sum to q). -/
theorem joinCols_apply {a b : Nat} (xs : List ((s : Shape) × (s.Idx → α)))
    (h : Shape.Concatenates (xs.map (·.1)) ⟨2, ![a, b]⟩ (1 : Fin 2)) (p : Fin a) (q : Fin b)
    (hk : q.val < xs.length) (col : (⟨2, ![a, 1]⟩ : Shape).Idx → α) (hxk : xs[q.val] = ⟨⟨2, ![a, 1]⟩, col⟩)
    (hpre : (((xs.take q.val).map (·.1)).map fun s =>
      if h : s.rank = (⟨2, ![a, b]⟩ : Shape).rank then s.size ((1 : Fin 2).cast h.symm) else 0).sum = q.val) :
    concatenate ⟨2, ![a, b]⟩ (1 : Fin 2) xs h (ix2 p q) = col (ix2 p (0 : Fin 1)) :=
  concatenate_apply_piece (1 : Fin 2) xs h (ix2 p q) q.val hk ⟨2, ![a, 1]⟩ col hxk rfl q.val hpre (ix2 p (0 : Fin 1))
    (fun d hd => match d with
      | ⟨0, _⟩ => rfl
      | ⟨1, _⟩ => absurd (Fin.ext rfl) hd)
    (by show q.val + 0 = q.val; omega)

/-- Slabs [a, 1, c] stacked along the middle axis into [a, b, c]: entry (p, q, r) is entry (p, 0, r) of the piece at
    position q, when every piece before it has thickness one. -/
theorem joinSlabs_apply {a b c : Nat} (xs : List ((s : Shape) × (s.Idx → α)))
    (h : Shape.Concatenates (xs.map (·.1)) ⟨3, ![a, b, c]⟩ (1 : Fin 3)) (p : Fin a) (q : Fin b) (r : Fin c)
    (hk : q.val < xs.length) (slab : (⟨3, ![a, 1, c]⟩ : Shape).Idx → α) (hxk : xs[q.val] = ⟨⟨3, ![a, 1, c]⟩, slab⟩)
    (hpre : (((xs.take q.val).map (·.1)).map fun s =>
      if h : s.rank = (⟨3, ![a, b, c]⟩ : Shape).rank then s.size ((1 : Fin 3).cast h.symm) else 0).sum = q.val) :
    concatenate ⟨3, ![a, b, c]⟩ (1 : Fin 3) xs h (ix3 p q r) = slab (ix3 p (0 : Fin 1) r) :=
  concatenate_apply_piece (1 : Fin 3) xs h (ix3 p q r) q.val hk ⟨3, ![a, 1, c]⟩ slab hxk rfl q.val hpre
    (ix3 p (0 : Fin 1) r)
    (fun d hd => match d with
      | ⟨0, _⟩ => rfl
      | ⟨1, _⟩ => absurd (Fin.ext rfl) hd
      | ⟨2, _⟩ => rfl)
    (by show q.val + 0 = q.val; omega)

end Cert.Lib.Columns

end
-- ==== Proof.KernelQuat.lean ====
/-
  The kernel's normalized rows, read at an index.

  The body works on a block of 100000 rows of four. It squares the block, sums each row keeping the sums as a
  column, takes the root, floors it at ε, broadcasts the column back over the rows and divides: entry (p, a) of the
  result is component a of the normalization of row p. The four columns of the result, each flattened to a
  vector, are the components w, x, y, z.
-/
import proofs.«165751_j59493886984835_1_alg».proof.Proof.Gen.KernelIdeal.Skeleton
import proofs.«165751_j59493886984835_1_alg».proof.Proof.CovSpec
import proofs.«165751_j59493886984835_1_alg».proof.Proof.RowOps
import proofs.«165751_j59493886984835_1_alg».proof.Proof.LibKeepdims
import proofs.«165751_j59493886984835_1_alg».proof.Proof.LibColumns
import Idealize.ShloMosaic.Lib.Pipeline.Value
import Idealize.ShloMosaic.Lib.ValueIdx

noncomputable section

open scoped BigOperators

namespace Cert.KernelIdeal.RowValue

open Cert.KernelIdeal Cert.KernelIdeal.Gen Idealize.ShloMosaic Idealize.ShloMosaic.ValueIdx
open Cert.Cov3d Cert.Lib.Keepdims Cert.Lib.Columns

/-- Row p of a block of rows of four. -/
abbrev row4 (v0 : FVec Ideal S100000x4 .f32) (p : Fin 100000) : Fin 4 → EReal := fun a => v0 (ix2 p a)
/-- Row p of a block of rows of three. -/
abbrev row3 (v1 : FVec Ideal S100000x3 .f32) (p : Fin 100000) : Fin 3 → EReal := fun j => v1 (ix2 p j)

/-- Entry (p, a) of the normalized block is component a of the normalization of row p. -/
theorem quat_apply (v0 : FVec Ideal S100000x4 .f32) (p : Fin 100000) (a : Fin 4) :
    k0_pay2 (F := Ideal) v0 (ix2 p a) = quat (row4 v0 p) a := by
  unfold k0_pay2 quat flooredNorm
  refine div_at v0 _ (ix2 p a) _ ?_
  refine (bcastCol_apply _ _ p a).trans ?_
  refine maxSqrt_at _ _ (ix2 p (0 : Fin 1)) _ _ ?_ rfl
  exact sumCol_apply (mulf v0 v0) 0x00000000#32 _ _ _ _ p

/-- The four components as vectors: element p is that component of the normalization of row p. -/
theorem w_apply (v0 : FVec Ideal S100000x4 .f32) (p : Fin 100000) :
    k0_pay3 (F := Ideal) v0 (ix1 p) = quat (row4 v0 p) 0 := by
  unfold k0_pay3
  exact (colVec_apply 0 (k0_pay2 (F := Ideal) v0) _ _ p (0 : Fin 4) rfl).trans (quat_apply v0 p 0)
theorem x_apply (v0 : FVec Ideal S100000x4 .f32) (p : Fin 100000) :
    k0_pay4 (F := Ideal) v0 (ix1 p) = quat (row4 v0 p) 1 := by
  unfold k0_pay4
  exact (colVec_apply 1 (k0_pay2 (F := Ideal) v0) _ _ p (1 : Fin 4) rfl).trans (quat_apply v0 p 1)
theorem y_apply (v0 : FVec Ideal S100000x4 .f32) (p : Fin 100000) :
    k0_pay5 (F := Ideal) v0 (ix1 p) = quat (row4 v0 p) 2 := by
  unfold k0_pay5
  exact (colVec_apply 2 (k0_pay2 (F := Ideal) v0) _ _ p (2 : Fin 4) rfl).trans (quat_apply v0 p 2)
theorem z_apply (v0 : FVec Ideal S100000x4 .f32) (p : Fin 100000) :
    k0_pay6 (F := Ideal) v0 (ix1 p) = quat (row4 v0 p) 3 := by
  unfold k0_pay6
  exact (colVec_apply 3 (k0_pay2 (F := Ideal) v0) _ _ p (3 : Fin 4) rfl).trans (quat_apply v0 p 3)

end Cert.KernelIdeal.RowValue

end
-- ==== Proof.RotOps.lean ====
/-
  The matrix entries and the covariance sums, read at one index.

  Each of the nine entries of the matrix of a quaternion is an elementwise expression in the component vectors
  w, x, y, z and two constant vectors (ones and twos); each covariance entry is an elementwise sum of three
  products (a_j b_j) s_j. At an index such an expression is the scalar expression of the operands' elements
  there. The lemmas take those elements as hypotheses and conclude with the specification's own names, so a proof
  supplies the elements from whatever layout the operands have.
-/
import Idealize.ShloMosaic.PureOps.Ideal
import Idealize.ShloMosaic.Lib.ValueIdx
import proofs.«165751_j59493886984835_1_alg».proof.Proof.CovSpec

noncomputable section

namespace Cert.Cov3d

open Idealize.ShloMosaic Idealize.ShloMosaic.ValueIdx

theorem mul2 {a a' b b' : EReal} (ha : a = a') (hb : b = b') : a * b = a' * b' := by rw [ha, hb]
theorem add2 {a a' b b' : EReal} (ha : a = a') (hb : b = b') : a + b = a' + b' := by rw [ha, hb]
theorem sub2 {a a' b b' : EReal} (ha : a = a') (hb : b = b') : a - b = a' - b' := by rw [ha, hb]

variable {s : Shape} (c1 c2 w x y z : FVec Ideal s .f32) (i : s.Idx) (w' x' y' z' : EReal)

/-- 1 - 2 (p² + q²) at an index: the three diagonal entries have this form. -/
theorem diag_at (p q : FVec Ideal s .f32) (p' q' : EReal) (h1 : c1 i = one) (h2 : c2 i = two) (hp : p i = p') (hq : q i = q') :
    subf c1 (mulf c2 (addf (mulf p p) (mulf q q))) i = one - two * (p' * p' + q' * q') :=
  show c1 i - c2 i * (p i * p i + q i * q i) = _ from sub2 h1 (mul2 h2 (add2 (mul2 hp hp) (mul2 hq hq)))

/-- 2 (p q - r t) at an index: the off-diagonal entries with a minus. -/
theorem offMinus_at (p q r t : FVec Ideal s .f32) (p' q' r' t' : EReal) (h2 : c2 i = two)
    (hp : p i = p') (hq : q i = q') (hr : r i = r') (ht : t i = t') :
    mulf c2 (subf (mulf p q) (mulf r t)) i = two * (p' * q' - r' * t') :=
  show c2 i * (p i * q i - r i * t i) = _ from mul2 h2 (sub2 (mul2 hp hq) (mul2 hr ht))

/-- 2 (p q + r t) at an index: the off-diagonal entries with a plus. -/
theorem offPlus_at (p q r t : FVec Ideal s .f32) (p' q' r' t' : EReal) (h2 : c2 i = two)
    (hp : p i = p') (hq : q i = q') (hr : r i = r') (ht : t i = t') :
    mulf c2 (addf (mulf p q) (mulf r t)) i = two * (p' * q' + r' * t') :=
  show c2 i * (p i * q i + r i * t i) = _ from mul2 h2 (add2 (mul2 hp hq) (mul2 hr ht))

/-- The nine entries of the matrix of (w, x, y, z), by name. -/
theorem rot00 : rotOfQuat w' x' y' z' 0 0 = one - two * (y' * y' + z' * z') := rfl
theorem rot01 : rotOfQuat w' x' y' z' 0 1 = two * (x' * y' - w' * z') := rfl
theorem rot02 : rotOfQuat w' x' y' z' 0 2 = two * (x' * z' + w' * y') := rfl
theorem rot10 : rotOfQuat w' x' y' z' 1 0 = two * (x' * y' + w' * z') := rfl
theorem rot11 : rotOfQuat w' x' y' z' 1 1 = one - two * (x' * x' + z' * z') := rfl
theorem rot12 : rotOfQuat w' x' y' z' 1 2 = two * (y' * z' - w' * x') := rfl
theorem rot20 : rotOfQuat w' x' y' z' 2 0 = two * (x' * z' - w' * y') := rfl
theorem rot21 : rotOfQuat w' x' y' z' 2 1 = two * (y' * z' + w' * x') := rfl
theorem rot22 : rotOfQuat w' x' y' z' 2 2 = one - two * (x' * x' + y' * y') := rfl

/-- A covariance entry at an index: the sum over j of (a_j b_j) s_j, the factors' elements given as entries of a
    matrix and squares of scales. -/
theorem gramSq_at (a0 b0 a1 b1 a2 b2 s0 s1 s2 : FVec Ideal s .f32) (R : Fin 3 → Fin 3 → EReal) (e : Fin 3 → EReal)
    (ii kk : Fin 3)
    (ha0 : a0 i = R ii 0) (hb0 : b0 i = R kk 0) (ha1 : a1 i = R ii 1) (hb1 : b1 i = R kk 1)
    (ha2 : a2 i = R ii 2) (hb2 : b2 i = R kk 2)
    (hs0 : s0 i = e 0 * e 0) (hs1 : s1 i = e 1 * e 1) (hs2 : s2 i = e 2 * e 2) :
    addf (addf (mulf (mulf a0 b0) s0) (mulf (mulf a1 b1) s1)) (mulf (mulf a2 b2) s2) i = gramSq R e ii kk :=
  show a0 i * b0 i * s0 i + a1 i * b1 i * s1 i + a2 i * b2 i * s2 i = _ from
    add2 (add2 (mul2 (mul2 ha0 hb0) hs0) (mul2 (mul2 ha1 hb1) hs1)) (mul2 (mul2 ha2 hb2) hs2)

/-- The square of an exponential at an index. -/
theorem expSq_at (v : FVec Ideal s .f32) (a : EReal) (hv : v i = a) :
    mulf (exp v) (exp v) i = Ideal.exp a * Ideal.exp a :=
  show Ideal.exp (v i) * Ideal.exp (v i) = _ from by rw [hv]

end Cert.Cov3d

end
-- ==== Proof.KernelEntries.lean ====
/-
  One row of the kernel's stored block, read at an index.

  From the four component vectors the body forms the nine entry vectors of the matrix and, from the three columns
  of the log-scales, the three squared scales e_j · e_j, e = exp σ. It then forms the six sums over j of
  (R_ij R_kj)(e_j e_j) for i ≤ k, and joins nine columns into the [100000, 9] result, each off-diagonal sum used for
  both of its columns: column 3 i + k holds the sum of the pair {i, k}. At row p that sum is the covariance entry
  with the squared scales pulled out, which is symmetric in (i, k): column 3 i + k of row p is the covariance entry
  (i, k) of row p.
-/
import proofs.«165751_j59493886984835_1_alg».proof.Proof.KernelQuat
import proofs.«165751_j59493886984835_1_alg».proof.Proof.RotOps
import Idealize.ShloMosaic.Lib.Pipeline.Value
import Idealize.ShloMosaic.Lib.ValueIdx

noncomputable section

open scoped BigOperators

namespace Cert.KernelIdeal.RowValue

open Cert.KernelIdeal Cert.KernelIdeal.Gen Idealize.ShloMosaic Idealize.ShloMosaic.ValueIdx
open Cert.Cov3d Cert.Lib.Keepdims Cert.Lib.Columns

variable (v0 : FVec Ideal S100000x4 .f32) (v1 : FVec Ideal S100000x3 .f32)

/-! ## The entry vectors and the squared scales, as the body names them -/

abbrev W := k0_pay3 (F := Ideal) v0
abbrev X := k0_pay4 (F := Ideal) v0
abbrev Y := k0_pay5 (F := Ideal) v0
abbrev Z := k0_pay6 (F := Ideal) v0

abbrev R00 := k0_pay7 (F := Ideal) v0
abbrev R01 := k0_pay8 (F := Ideal) v0
abbrev R02 := k0_pay9 (F := Ideal) v0
abbrev R10 := k0_pay10 (F := Ideal) v0
abbrev R11 := k0_pay13 (F := Ideal) (k0_pay11 (F := Ideal) v0) (k0_pay12 (F := Ideal))
abbrev R12 := k0_pay14 (F := Ideal) (W v0) (X v0) (Y v0) (Z v0)
abbrev R20 := k0_pay15 (F := Ideal) (W v0) (X v0) (Y v0) (Z v0)
abbrev R21 := k0_pay16 (F := Ideal) (W v0) (X v0) (Y v0) (Z v0)
abbrev R22 := k0_pay17 (F := Ideal) (X v0) (Y v0)
abbrev E0 := k0_pay18 (F := Ideal) v1
abbrev E1 := k0_pay19 (F := Ideal) v1
abbrev E2 := k0_pay20 (F := Ideal) v1

variable (p : Fin 100000)

/-- The matrix of row p. -/
abbrev Rp : Fin 3 → Fin 3 → EReal := rotOf (row4 v0 p)
/-- The scales of row p. -/
abbrev ep : Fin 3 → EReal := fun j => Ideal.exp (row3 v1 p j)

theorem r00_apply : R00 v0 (ix1 p) = Rp v0 p 0 0 := by
  unfold R00 k0_pay7
  exact (diag_at _ _ (ix1 p) (Y v0) (Z v0) _ _ rfl rfl (y_apply v0 p) (z_apply v0 p)).trans (rot00 _ _ _ _).symm
theorem r01_apply : R01 v0 (ix1 p) = Rp v0 p 0 1 := by
  unfold R01 k0_pay8
  exact (offMinus_at _ (ix1 p) (X v0) (Y v0) (W v0) (Z v0) _ _ _ _ rfl (x_apply v0 p) (y_apply v0 p) (w_apply v0 p)
    (z_apply v0 p)).trans (rot01 _ _ _ _).symm
theorem r02_apply : R02 v0 (ix1 p) = Rp v0 p 0 2 := by
  unfold R02 k0_pay9
  exact (offPlus_at _ (ix1 p) (X v0) (Z v0) (W v0) (Y v0) _ _ _ _ rfl (x_apply v0 p) (z_apply v0 p) (w_apply v0 p)
    (y_apply v0 p)).trans (rot02 _ _ _ _).symm
theorem r10_apply : R10 v0 (ix1 p) = Rp v0 p 1 0 := by
  unfold R10 k0_pay10
  exact (offPlus_at _ (ix1 p) (X v0) (Y v0) (W v0) (Z v0) _ _ _ _ rfl (x_apply v0 p) (y_apply v0 p) (w_apply v0 p)
    (z_apply v0 p)).trans (rot10 _ _ _ _).symm
theorem r11_apply : R11 v0 (ix1 p) = Rp v0 p 1 1 := by
  unfold R11 k0_pay13 k0_pay11 k0_pay12
  exact (diag_at _ _ (ix1 p) (X v0) (Z v0) _ _ rfl rfl (x_apply v0 p) (z_apply v0 p)).trans (rot11 _ _ _ _).symm
theorem r12_apply : R12 v0 (ix1 p) = Rp v0 p 1 2 := by
  unfold R12 k0_pay14
  exact (offMinus_at _ (ix1 p) (Y v0) (Z v0) (W v0) (X v0) _ _ _ _ rfl (y_apply v0 p) (z_apply v0 p) (w_apply v0 p)
    (x_apply v0 p)).trans (rot12 _ _ _ _).symm
theorem r20_apply : R20 v0 (ix1 p) = Rp v0 p 2 0 := by
  unfold R20 k0_pay15
  exact (offMinus_at _ (ix1 p) (X v0) (Z v0) (W v0) (Y v0) _ _ _ _ rfl (x_apply v0 p) (z_apply v0 p) (w_apply v0 p)
    (y_apply v0 p)).trans (rot20 _ _ _ _).symm
theorem r21_apply : R21 v0 (ix1 p) = Rp v0 p 2 1 := by
  unfold R21 k0_pay16
  exact (offPlus_at _ (ix1 p) (Y v0) (Z v0) (W v0) (X v0) _ _ _ _ rfl (y_apply v0 p) (z_apply v0 p) (w_apply v0 p)
    (x_apply v0 p)).trans (rot21 _ _ _ _).symm
theorem r22_apply : R22 v0 (ix1 p) = Rp v0 p 2 2 := by
  unfold R22 k0_pay17
  exact (diag_at _ _ (ix1 p) (X v0) (Y v0) _ _ rfl rfl (x_apply v0 p) (y_apply v0 p)).trans (rot22 _ _ _ _).symm

theorem e0_apply : E0 v1 (ix1 p) = ep v1 p 0 * ep v1 p 0 := by
  unfold E0 k0_pay18
  exact expSq_at (ix1 p) _ _ (colVec_apply 0 v1 _ _ p (0 : Fin 3) rfl)
theorem e1_apply : E1 v1 (ix1 p) = ep v1 p 1 * ep v1 p 1 := by
  unfold E1 k0_pay19
  exact expSq_at (ix1 p) _ _ (colVec_apply 1 v1 _ _ p (1 : Fin 3) rfl)
theorem e2_apply : E2 v1 (ix1 p) = ep v1 p 2 * ep v1 p 2 := by
  unfold E2 k0_pay20
  exact expSq_at (ix1 p) _ _ (colVec_apply 2 v1 _ _ p (2 : Fin 3) rfl)

end Cert.KernelIdeal.RowValue

end
-- ==== Proof.KernelCols.lean ====
/-
  The kernel's stored block, column by column.

  The body joins nine columns into its [100000, 9] result: the six sums over j of (R_ij R_kj)(e_j e_j), i ≤ k, each
  off-diagonal one used for both of its columns, so that column 3 i + k holds the sum of the pair {i, k}. At row p
  each sum is the covariance entry with the squared scales pulled out, which is symmetric in (i, k): entry
  (p, 3 i + k) of the stored block is the covariance entry (i, k) of row p.
-/
import proofs.«165751_j59493886984835_1_alg».proof.Proof.KernelEntries
import Idealize.ShloMosaic.Lib.Pipeline.Value
import Idealize.ShloMosaic.Lib.ValueIdx

noncomputable section

open scoped BigOperators

namespace Cert.KernelIdeal.RowValue

open Cert.KernelIdeal Cert.KernelIdeal.Gen Idealize.ShloMosaic Idealize.ShloMosaic.ValueIdx
open Cert.Cov3d Cert.Lib.Keepdims Cert.Lib.Columns

variable (v0 : FVec Ideal S100000x4 .f32) (v1 : FVec Ideal S100000x3 .f32)

/-- The sum over j of (a_j b_j) s_j, as vectors. -/
abbrev sum3 (a0 b0 a1 b1 a2 b2 s0 s1 s2 : FVec Ideal S100000 .f32) : FVec Ideal S100000 .f32 :=
  addf (addf (mulf (mulf a0 b0) s0) (mulf (mulf a1 b1) s1)) (mulf (mulf a2 b2) s2)

/-- The six sums, named by their pair of rows. -/
def sum00 : FVec Ideal S100000 .f32 := sum3 (R00 v0) (R00 v0) (R01 v0) (R01 v0) (R02 v0) (R02 v0) (E0 v1) (E1 v1) (E2 v1)
def sum01 : FVec Ideal S100000 .f32 := sum3 (R00 v0) (R10 v0) (R01 v0) (R11 v0) (R02 v0) (R12 v0) (E0 v1) (E1 v1) (E2 v1)
def sum02 : FVec Ideal S100000 .f32 := sum3 (R00 v0) (R20 v0) (R01 v0) (R21 v0) (R02 v0) (R22 v0) (E0 v1) (E1 v1) (E2 v1)
def sum11 : FVec Ideal S100000 .f32 := sum3 (R10 v0) (R10 v0) (R11 v0) (R11 v0) (R12 v0) (R12 v0) (E0 v1) (E1 v1) (E2 v1)
def sum12 : FVec Ideal S100000 .f32 := sum3 (R10 v0) (R20 v0) (R11 v0) (R21 v0) (R12 v0) (R22 v0) (E0 v1) (E1 v1) (E2 v1)
def sum22 : FVec Ideal S100000 .f32 := sum3 (R20 v0) (R20 v0) (R21 v0) (R21 v0) (R22 v0) (R22 v0) (E0 v1) (E1 v1) (E2 v1)

/-- A sum kept as a column. -/
abbrev asCol (v : FVec Ideal S100000 .f32) : (s : Shape) × (s.Idx → EReal) :=
  ⟨S100000x1, shapeCast S100000x1 v shapeCasts_S100000_S100000x1⟩

/-- The nine columns, in order. -/
def cols : List ((s : Shape) × (s.Idx → EReal)) :=
  [asCol (sum00 v0 v1), asCol (sum01 v0 v1), asCol (sum02 v0 v1), asCol (sum01 v0 v1), asCol (sum11 v0 v1),
    asCol (sum12 v0 v1), asCol (sum02 v0 v1), asCol (sum12 v0 v1), asCol (sum22 v0 v1)]

/-- What the body stores, as a function of the two blocks it loads. -/
def body : FVec Ideal S100000x9 .f32 :=
  k0_pay1 (F := Ideal) (R02 v0) (R10 v0) (R11 v0) (R12 v0) (R20 v0) (R21 v0) (R22 v0) (E0 v1) (E1 v1) (E2 v1)
    (k0_pay21 (F := Ideal) v1 (R00 v0) (R01 v0) (R02 v0))
    (k0_pay22 (F := Ideal) v1 (W v0) (X v0) (Y v0) (Z v0) (R00 v0) (R01 v0) (R02 v0) (R10 v0)
      (k0_pay11 (F := Ideal) v0) (k0_pay12 (F := Ideal)))
    (k0_pay23 (F := Ideal) v1 (W v0) (X v0) (Y v0) (Z v0) (R00 v0))
    (k0_pay24 (F := Ideal) v1 (W v0) (X v0) (Y v0) (Z v0) (R01 v0))

/-- The stored block is the nine columns joined side by side: the body's arithmetic, regrouped by name. -/
theorem body_eq : body v0 v1 = concatenate S100000x9 1 (cols v0 v1)
    concatenates_S100000x1_S100000x1_S100000x1_S100000x1_S100000x1_S100000x1_S100000x1_S100000x1_S100000x1_S100000x9_d1 := rfl

variable (p : Fin 100000)

/-! ## The sums at row p -/

theorem sum00_apply : sum00 v0 v1 (ix1 p) = gramSq (Rp v0 p) (ep v1 p) 0 0 :=
  gramSq_at (ix1 p) _ _ _ _ _ _ _ _ _ _ _ 0 0 (r00_apply v0 p) (r00_apply v0 p) (r01_apply v0 p) (r01_apply v0 p)
    (r02_apply v0 p) (r02_apply v0 p) (e0_apply v1 p) (e1_apply v1 p) (e2_apply v1 p)
theorem sum01_apply : sum01 v0 v1 (ix1 p) = gramSq (Rp v0 p) (ep v1 p) 0 1 :=
  gramSq_at (ix1 p) _ _ _ _ _ _ _ _ _ _ _ 0 1 (r00_apply v0 p) (r10_apply v0 p) (r01_apply v0 p) (r11_apply v0 p)
    (r02_apply v0 p) (r12_apply v0 p) (e0_apply v1 p) (e1_apply v1 p) (e2_apply v1 p)
theorem sum02_apply : sum02 v0 v1 (ix1 p) = gramSq (Rp v0 p) (ep v1 p) 0 2 :=
  gramSq_at (ix1 p) _ _ _ _ _ _ _ _ _ _ _ 0 2 (r00_apply v0 p) (r20_apply v0 p) (r01_apply v0 p) (r21_apply v0 p)
    (r02_apply v0 p) (r22_apply v0 p) (e0_apply v1 p) (e1_apply v1 p) (e2_apply v1 p)
theorem sum11_apply : sum11 v0 v1 (ix1 p) = gramSq (Rp v0 p) (ep v1 p) 1 1 :=
  gramSq_at (ix1 p) _ _ _ _ _ _ _ _ _ _ _ 1 1 (r10_apply v0 p) (r10_apply v0 p) (r11_apply v0 p) (r11_apply v0 p)
    (r12_apply v0 p) (r12_apply v0 p) (e0_apply v1 p) (e1_apply v1 p) (e2_apply v1 p)
theorem sum12_apply : sum12 v0 v1 (ix1 p) = gramSq (Rp v0 p) (ep v1 p) 1 2 :=
  gramSq_at (ix1 p) _ _ _ _ _ _ _ _ _ _ _ 1 2 (r10_apply v0 p) (r20_apply v0 p) (r11_apply v0 p) (r21_apply v0 p)
    (r12_apply v0 p) (r22_apply v0 p) (e0_apply v1 p) (e1_apply v1 p) (e2_apply v1 p)
theorem sum22_apply : sum22 v0 v1 (ix1 p) = gramSq (Rp v0 p) (ep v1 p) 2 2 :=
  gramSq_at (ix1 p) _ _ _ _ _ _ _ _ _ _ _ 2 2 (r20_apply v0 p) (r20_apply v0 p) (r21_apply v0 p) (r21_apply v0 p)
    (r22_apply v0 p) (r22_apply v0 p) (e0_apply v1 p) (e1_apply v1 p) (e2_apply v1 p)

/-! ## The columns at row p -/

/-- Column q of the stored block at row p is element p of the q-th of the nine columns' sums. -/
theorem col_apply (q : Fin 9) (v : FVec Ideal S100000 .f32) (hq : (cols v0 v1)[q.val]'(by have := q.isLt; simp [cols]) = asCol v)
    (hpre : ((((cols v0 v1).take q.val).map (·.1)).map fun s =>
      if h : s.rank = (⟨2, ![100000, 9]⟩ : Shape).rank then s.size ((1 : Fin 2).cast h.symm) else 0).sum = q.val) :
    body v0 v1 (ix2 p q) = v (ix1 p) :=
  (congrFun (body_eq v0 v1) (ix2 p q)).trans
    ((joinCols_apply (cols v0 v1) _ p q _ _ hq hpre).trans (castCol_apply v _ p))

/-- Entry (p, 3 i + k) of the stored block is the covariance entry (i, k) of row p. -/
theorem body_apply (i k : Fin 3) :
    body v0 v1 (ix2 p ⟨3 * i.val + k.val, by have := i.isLt; have := k.isLt; omega⟩)
      = covRow (row4 v0 p) (row3 v1 p) i k := by
  unfold covRow
  match i, k with
  | ⟨0, _⟩, ⟨0, _⟩ => exact (col_apply v0 v1 p (0 : Fin 9) _ rfl rfl).trans (sum00_apply v0 v1 p)
  | ⟨0, _⟩, ⟨1, _⟩ => exact (col_apply v0 v1 p (1 : Fin 9) _ rfl rfl).trans (sum01_apply v0 v1 p)
  | ⟨0, _⟩, ⟨2, _⟩ => exact (col_apply v0 v1 p (2 : Fin 9) _ rfl rfl).trans (sum02_apply v0 v1 p)
  | ⟨1, _⟩, ⟨0, _⟩ =>
    exact (col_apply v0 v1 p (3 : Fin 9) _ rfl rfl).trans ((sum01_apply v0 v1 p).trans (gramSq_symm _ _ 0 1))
  | ⟨1, _⟩, ⟨1, _⟩ => exact (col_apply v0 v1 p (4 : Fin 9) _ rfl rfl).trans (sum11_apply v0 v1 p)
  | ⟨1, _⟩, ⟨2, _⟩ => exact (col_apply v0 v1 p (5 : Fin 9) _ rfl rfl).trans (sum12_apply v0 v1 p)
  | ⟨2, _⟩, ⟨0, _⟩ =>
    exact (col_apply v0 v1 p (6 : Fin 9) _ rfl rfl).trans ((sum02_apply v0 v1 p).trans (gramSq_symm _ _ 0 2))
  | ⟨2, _⟩, ⟨1, _⟩ =>
    exact (col_apply v0 v1 p (7 : Fin 9) _ rfl rfl).trans ((sum12_apply v0 v1 p).trans (gramSq_symm _ _ 1 2))
  | ⟨2, _⟩, ⟨2, _⟩ => exact (col_apply v0 v1 p (8 : Fin 9) _ rfl rfl).trans (sum22_apply v0 v1 p)

end Cert.KernelIdeal.RowValue

end
-- ==== Proof.CovLayout.lean ====
/-
  Nine to a row, and three by three.

  The covariance entries of row n, laid out nine to a row, sit in column 3 i + k for entry (i, k); reshaping
  [4000000, 9] to [4000000, 3, 3] sends position (n, 3 i + k) to (n, i, k), both being position 9 n + 3 i + k in
  row-major order. So the reshaped nine-to-a-row array is the covariance array.
-/
import Idealize.ShloMosaic.Lib.Pipeline.Value
import Idealize.ShloMosaic.Lib.ValueIdx
import proofs.«165751_j59493886984835_1_alg».proof.Proof.CovSpec

noncomputable section

namespace Cert.Cov3d

open Idealize.ShloMosaic Idealize.ShloMosaic.ValueIdx

variable (rot : (⟨2, ![4000000, 4]⟩ : Shape).Idx → EReal) (sc : (⟨2, ![4000000, 3]⟩ : Shape).Idx → EReal)

/-- Column 3 i + k of row n holds entry (i, k). -/
theorem G9_apply (n : Fin 4000000) (i k : Fin 3) (h : 3 * i.val + k.val < 9) :
    G9 rot sc (ix2 n ⟨3 * i.val + k.val, h⟩) = covAt rot sc n i k := by
  have hi : (⟨(3 * i.val + k.val) / 3, by omega⟩ : Fin 3) = i :=
    Fin.ext (by show (3 * i.val + k.val) / 3 = i.val; have := k.isLt; omega)
  have hk : (⟨(3 * i.val + k.val) % 3, Nat.mod_lt _ (by decide)⟩ : Fin 3) = k :=
    Fin.ext (by show (3 * i.val + k.val) % 3 = k.val; have := k.isLt; omega)
  exact congrArg₂ (covAt rot sc n) hi hk

/-- The nine-to-a-row array reshaped three by three is the covariance array. -/
theorem reshape_G9 (h : (⟨2, ![4000000, 9]⟩ : Shape).ShapeCasts ⟨3, ![4000000, 3, 3]⟩) :
    shapeCast ⟨3, ![4000000, 3, 3]⟩ (G9 rot sc) h = G rot sc := by
  funext j
  obtain ⟨n, i, k, rfl⟩ : ∃ (n : Fin 4000000) (i k : Fin 3), j = ix3 n i k := ⟨j 0, j 1, j 2, eq_ix3 j⟩
  have hlt : 3 * i.val + k.val < 9 := by have := i.isLt; have := k.isLt; omega
  refine (shapeCast_apply (G9 rot sc) h (ix3 n i k) (ix2 n ⟨3 * i.val + k.val, hlt⟩) ?_).trans
    (G9_apply rot sc n i k hlt)
  rw [Shape.rowMajor_val_two, Shape.rowMajor_val_three]
  show n.val * 9 + (3 * i.val + k.val) = (n.val * 3 + i.val) * 3 + k.val
  omega

end Cert.Cov3d

end
-- ==== Proof.KernelArray.lean ====
/-
  From the kernel's blocks to its result array.

  The grid has 40 points; at point t each window's block is rows 100000 t … 100000 t + 99999 of its array, all
  columns. The body turns the two input blocks into the stored block row by row, so what point t writes back is
  rows 100000 t … of the nine-to-a-row covariance array of the whole arguments. The 40 blocks cover every row, so
  after the run the output array is that array; the reshape that follows makes it the covariance array.
-/
import proofs.«165751_j59493886984835_1_alg».proof.Proof.Gen.KernelIdeal.Frame
import proofs.«165751_j59493886984835_1_alg».proof.Proof.KernelCols
import proofs.«165751_j59493886984835_1_alg».proof.Proof.CovLayout
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.Cov3d Cert.KernelIdeal.RowValue

variable (m : (ℓ : Loc nD τ sig) → Buf (Elt Ideal) ℓ) (ρ : Dev nD → PrngReg)

theorem zero_off : (![0, 0] : Fin 2 → Nat) = fun _ => 0 := funext fun a => by fin_cases a <;> rfl

/-- At point t every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The rotations as the region finds them. -/
abbrev A0 (c : Dev nD) : FVec Ideal S4000000x4 .f32 := m ((c : Thread nD τ).loc main_arg0)
/-- The log-scales as the region finds them. -/
abbrev A1 (c : Dev nD) : FVec Ideal S4000000x3 .f32 := m ((c : Thread nD τ).loc main_arg1)

/-- Row p of the rotations' block at point t is row 100000 t + p of the rotations. -/
theorem iblk0_apply (c : Dev nD) (t : Fin cfg0.N) (p : Fin 100000) (a : Fin 4) (n : Fin 4000000)
    (hn : n.val = t.val * 100000 + p.val) :
    (iblk m c 0 t : FVec Ideal S100000x4 .f32) (ix2 p a) = A0 m c (ix2 n a) := by
  obtain ⟨e00, e01, -, -, -, -⟩ := idx_facts t
  unfold iblk
  rw [View.read_apply]
  show V m c main_arg0 _ = m (c.tc.loc main_arg0) _
  unfold V
  congr 1
  funext d
  apply Fin.ext
  match d with
  | ⟨0, _⟩ => show win0_0.index t (0 : Fin 2) * 100000 + 1 * p.val = n.val; omega
  | ⟨1, _⟩ => show win0_0.index t (1 : Fin 2) * 4 + 1 * a.val = a.val; omega

/-- Row p of the log-scales' block at point t is row 100000 t + p of the log-scales. -/
theorem iblk1_apply (c : Dev nD) (t : Fin cfg0.N) (p : Fin 100000) (j : Fin 3) (n : Fin 4000000)
    (hn : n.val = t.val * 100000 + p.val) :
    (iblk m c 1 t : FVec Ideal S100000x3 .f32) (ix2 p j) = A1 m c (ix2 n j) := by
  obtain ⟨-, -, e10, e11, -, -⟩ := idx_facts t
  unfold iblk
  rw [View.read_apply]
  show V m c main_arg1 _ = m (c.tc.loc main_arg1) _
  unfold V
  congr 1
  funext d
  apply Fin.ext
  match d with
  | ⟨0, _⟩ => show win0_1.index t (0 : Fin 2) * 100000 + 1 * p.val = n.val; omega
  | ⟨1, _⟩ => show win0_1.index t (1 : Fin 2) * 3 + 1 * j.val = j.val; omega

/-- A stored block whose input blocks are rows b, b + 1, … of the arguments is rows b, b + 1, … of the
    nine-to-a-row covariance array. -/
theorem block_rows (a0 : FVec Ideal S4000000x4 .f32) (a1 : FVec Ideal S4000000x3 .f32)
    (x0 : FVec Ideal S100000x4 .f32) (x1 : FVec Ideal S100000x3 .f32) (p : Fin 100000) (n : Fin 4000000)
    (h0 : ∀ a : Fin 4, x0 (ix2 p a) = a0 (ix2 n a)) (h1 : ∀ j : Fin 3, x1 (ix2 p j) = a1 (ix2 n j)) (q : Fin 9) :
    body x0 x1 (ix2 p q) = G9 a0 a1 (ix2 n q) := by
  have hq : q.val < 9 := q.isLt
  obtain ⟨i, k, h, rfl⟩ : ∃ (i k : Fin 3) (h : 3 * i.val + k.val < 9), q = ⟨3 * i.val + k.val, h⟩ :=
    ⟨⟨q.val / 3, by omega⟩, ⟨q.val % 3, Nat.mod_lt _ (by decide)⟩, (by show 3 * (q.val / 3) + q.val % 3 < 9; omega),
      Fin.ext (by show q.val = 3 * (q.val / 3) + q.val % 3; omega)⟩
  refine (body_apply x0 x1 p i k).trans (Eq.trans ?_ (G9_apply a0 a1 n i k _).symm)
  unfold covAt
  exact congrArg₂ (fun r σ => covRow r σ i k) (funext h0) (funext h1)

/-- What point t writes back is block t of the nine-to-a-row covariance array of the arguments. -/
theorem flushed_eq (c : Dev nD) (t : Fin cfg0.N) :
    (dats m 0 c).flushed 2 t = ((cfg0.win 2).blk t).view.read (Elt Ideal) (G9 (A0 m c) (A1 m c)) := by
  show (cfg0.win 2).cut (grid0.coords t) ((dats m 0 c).after 2 t) = _
  rw [after0_2]
  unfold out0_2
  rw [View.canon_unit_zero zero_off]
  simp only [View.ld_unit_zero (S := S100000x4) zero_off, View.ld_unit_zero (S := S100000x3) zero_off]
  obtain ⟨-, -, -, -, e20, e21⟩ := idx_facts t
  have ht : t.val < 40 := lt_of_lt_of_eq t.isLt N_0
  funext j
  obtain ⟨p, q, rfl⟩ : ∃ (p : Fin 100000) (q : Fin 9), j = ix2 p q := ⟨j 0, j 1, eq_ix2 j⟩
  have hp : p.val < 100000 := p.isLt
  let n : Fin 4000000 := ⟨t.val * 100000 + p.val, by omega⟩
  have hemb : ((cfg0.win 2).blk t).view.emb (ix2 p q) = ix2 n q := by
    funext d
    apply Fin.ext
    match d with
    | ⟨0, _⟩ => show win0_2.index t (0 : Fin 2) * 100000 + 1 * p.val = t.val * 100000 + p.val; omega
    | ⟨1, _⟩ => show win0_2.index t (1 : Fin 2) * 9 + 1 * q.val = q.val; omega
  show body (iblk m c 0 t) (iblk m c 1 t) (ix2 p q) = G9 (A0 m c) (A1 m c) (((cfg0.win 2).blk t).view.emb (ix2 p q))
  rw [hemb]
  exact block_rows (A0 m c) (A1 m c) (iblk m c 0 t) (iblk m c 1 t) p n
    (fun a => iblk0_apply m c t p a n rfl) (fun j => iblk1_apply m c t p j n rfl) q

/-- An index of the output array is in point t's block iff each coordinate is in the block's range on its axis. -/
theorem mem_blk (t : Fin cfg0.N) (i : S4000000x9.Idx) :
    i ∈ ((cfg0.win 2).blk t).view.set ↔ ∀ a : Fin 2, win0_2.index t a * S100000x9.size a ≤ (i a).val
      ∧ (i a).val < win0_2.index t a * S100000x9.size a + S100000x9.size a := by
  show i ∈ ((View.whole main_v0).slice (win0_2.rect t)).set ↔ _
  rw [View.set_slice_whole, Rect.mem_set_unit]
  exact Iff.rfl

/-- Every row is in some point's block: row r in that of point r / 100000. -/
theorem cover (i : S4000000x9.Idx) :
    ∃ t : Fin cfg0.N, (cfg0.win 2).flush t = true ∧ i ∈ ((cfg0.win 2).blk t).view.set := by
  have hi0 : (i 0).val < 4000000 := (i 0).isLt
  have hi1 : (i 1).val < 9 := (i 1).isLt
  have hN : cfg0.N = 40 := N_0
  let t : Fin cfg0.N := ⟨(i 0).val / 100000, by rw [hN]; omega⟩
  obtain ⟨-, -, -, -, e20, e21⟩ := idx_facts t
  have htv : t.val = (i 0).val / 100000 := rfl
  refine ⟨t, flush0_2 t, ?_⟩
  rw [mem_blk]
  intro a
  match a with
  | ⟨0, _⟩ =>
    show win0_2.index t (0 : Fin 2) * 100000 ≤ (i 0).val ∧ (i 0).val < win0_2.index t (0 : Fin 2) * 100000 + 100000
    omega
  | ⟨1, _⟩ =>
    show win0_2.index t (1 : Fin 2) * 9 ≤ (i 1).val ∧ (i 1).val < win0_2.index t (1 : Fin 2) * 9 + 9
    omega

/-- The output array after the run is the nine-to-a-row covariance array of the arguments. -/
theorem final (c : Dev nD) : (dats m 0 c).arrAt 2 cfg0.N = G9 (A0 m c) (A1 m c) :=
  (dats m 0 c).arrAt_eq_of_cover 2 (G9 (A0 m c) (A1 m c)) (fun t _ => flushed_eq m c t) cover

end Cert.KernelIdeal.ArrayValue

end
-- ==== Proof.KernelRun.lean ====
/-
  The kernel's run, read.

  After the region the output array [4000000, 9] holds the nine-to-a-row covariance array of the arguments; the one
  host operation that follows reshapes it to [4000000, 3, 3], position (n, 3 i + k) going to (n, i, k): the program's
  result is the covariance array, and the arguments are as they were.
-/
import proofs.«165751_j59493886984835_1_alg».proof.Proof.KernelArray
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.Cov3d

variable (m : (ℓ : Loc nD τ sig) → Buf (Elt Ideal) ℓ) (ρ : Dev nD → PrngReg)

/-- The result buffer is no window's array and is not scoped: the lines after the region decide what it holds. -/
theorem result_mem_rest : main_v1 ∈ Pipeline.restRefs sig (cfgs 0).spec :=
  Pipeline.mem_restRefs_of main_v1 rfl (fun w => by fin_cases w <;> decide)

/-- What the region leaves in the output array, as the lines after it find it. -/
theorem region_out (c : Dev nD) :
    Pipeline.withArrays (cfgs 0).spec c (V0 m c) (fun w => (dats m 0 c).arrAt w (cfgs 0).N) (Proc.tc.devRef main_v0)
      = G9 (A0 m c) (A1 m c) :=
  (Pipeline.withArrays_arr spec0 launch0.win.arr_inj c _ _ 2).trans (final m c)

/-- The reshape after the region makes the result the covariance array. -/
theorem tail_eq (c : Dev nD) :
    Pipeline.afterTail₀ cfgs (dats m) 0 (V0 m) [hostOps1] c main_v1 = G (A0 m c) (A1 m c) := by
  unfold Pipeline.afterTail₀
  show StableHlo.after hostOps1 _ (Proc.devRef .tc main_v1) = _
  after_results
  rw [region_out m c]
  exact reshape_G9 (A0 m c) (A1 m c) _

/-- Every weakly fair execution of the program ends with the result at the covariance array of the arguments and
    the arguments unchanged. -/
theorem run : θ_run defs (onTc (τ := τ) (main (F := Ideal))) ⟨m, fun _ => 0, ρ⟩ fun r => ∀ c : Dev nD,
      r.2.mem ((c.tc : Thread nD τ).loc main_v1) = G (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.RefQuat.lean ====
/-
  The reference's normalized rows, read at an index.

  The reference squares the rotations, sums each row of four, takes the root, floors it at ε, broadcasts it back
  over the row and divides: entry (n, a) of the result is component a of the normalization of row n. The four
  columns of the result, each flattened to a vector, are the components w, x, y, z.
-/
import proofs.«165751_j59493886984835_1_alg».proof.Proof.Gen.ReferenceIdeal.Read
import proofs.«165751_j59493886984835_1_alg».proof.Proof.CovSpec
import proofs.«165751_j59493886984835_1_alg».proof.Proof.RowOps
import proofs.«165751_j59493886984835_1_alg».proof.Proof.LibColumns
import Idealize.ShloMosaic.Lib.Pipeline.Value
import Idealize.ShloMosaic.Lib.ValueIdx
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic Idealize.ShloMosaic.ValueIdx
open Cert.Cov3d Cert.Lib.Columns

/-- Row n of the rotations. -/
abbrev row4 (x0 : FVec Ideal S4000000x4 .f32) (n : Fin 4000000) : Fin 4 → EReal := fun a => x0 (ix2 n a)
/-- Row n of the log-scales. -/
abbrev row3 (x1 : FVec Ideal S4000000x3 .f32) (n : Fin 4000000) : Fin 3 → EReal := fun j => x1 (ix2 n j)

/-- The sum of squares of row n. -/
theorem sumsq_apply (x0 : FVec Ideal S4000000x4 .f32) (n : Fin 4000000) :
    val_main_v1 (F := Ideal) x0 (ix1 n) = ∑ k : Fin 4, row4 x0 n k * row4 x0 n k := by
  refine (val_main_v1_apply x0 (ix1 n)).trans ?_
  refine (congrArg (· + _) Ideal.ofBits_zero_f32).trans ((zero_add _).trans ?_)
  refine Finset.sum_congr rfl fun k _ => ?_
  have e1 : idx_main_v1 (ix1 n) k = ix2 n k :=
    funext fun d => Fin.ext (by match d with | ⟨0, _⟩ => rfl | ⟨1, _⟩ => rfl)
  rw [e1]
  rfl

/-- The sums kept as a column: row n of it is the sum of squares of row n. -/
theorem sumsqCol_apply (x0 : FVec Ideal S4000000x4 .f32) (n : Fin 4000000) :
    val_main_v2 (F := Ideal) x0 (ix2 n (0 : Fin 1)) = ∑ k : Fin 4, row4 x0 n k * row4 x0 n k := by
  refine (val_main_v2_apply (F := Ideal) x0 (ix2 n (0 : Fin 1))).trans ?_
  have e2 : idx_main_v2 (ix2 n (0 : Fin 1)) = ix1 n := funext fun d => Fin.ext (by match d with | ⟨0, _⟩ => rfl)
  rw [e2]
  exact sumsq_apply x0 n

/-- The floor ε as a column. -/
theorem epsCol_apply (n : Fin 4000000) : val_main_v4 (F := Ideal) (ix2 n (0 : Fin 1)) = eps :=
  val_main_v4_apply (F := Ideal) (ix2 n (0 : Fin 1))

/-- The floored norm kept as a column: row n of it is the floored norm of row n. -/
theorem normCol_apply (x0 : FVec Ideal S4000000x4 .f32) (n : Fin 4000000) :
    val_main_v5 (F := Ideal) x0 (ix2 n (0 : Fin 1)) = flooredNorm (row4 x0 n) := by
  unfold val_main_v5 val_main_v3 flooredNorm
  exact hostMaxSqrt_at _ _ (ix2 n (0 : Fin 1)) _ _ (sumsqCol_apply x0 n) (epsCol_apply n)

/-- The floored norm broadcast back over the row: entry (n, a) is the floored norm of row n. -/
theorem norm_apply (x0 : FVec Ideal S4000000x4 .f32) (n : Fin 4000000) (a : Fin 4) :
    val_main_v6 (F := Ideal) x0 (ix2 n a) = flooredNorm (row4 x0 n) := by
  have e6 : idx_main_v6 (ix2 n a) = ix2 n (0 : Fin 1) :=
    funext fun d => Fin.ext (by match d with | ⟨0, _⟩ => rfl | ⟨1, _⟩ => rfl)
  exact (val_main_v6_apply (F := Ideal) x0 (ix2 n a)).trans ((congrArg (val_main_v5 (F := Ideal) x0) e6).trans (normCol_apply x0 n))

/-- Entry (n, a) of the normalized rotations is component a of the normalization of row n. -/
theorem quat_apply (x0 : FVec Ideal S4000000x4 .f32) (n : Fin 4000000) (a : Fin 4) :
    val_main_v7 (F := Ideal) x0 (ix2 n a) = quat (row4 x0 n) a := by
  unfold val_main_v7 quat
  exact hostDiv_at x0 _ (ix2 n a) _ (norm_apply x0 n a)

/-- The four components as vectors: element n is that component of the normalization of row n. -/
theorem w_apply (x0 : FVec Ideal S4000000x4 .f32) (n : Fin 4000000) :
    val_main_v9 (F := Ideal) x0 (ix1 n) = quat (row4 x0 n) 0 := by
  unfold val_main_v9 val_main_v8
  exact (colVec_apply 0 (val_main_v7 (F := Ideal) x0) _ _ n (0 : Fin 4) rfl).trans (quat_apply x0 n 0)
theorem x_apply (x0 : FVec Ideal S4000000x4 .f32) (n : Fin 4000000) :
    val_main_v11 (F := Ideal) x0 (ix1 n) = quat (row4 x0 n) 1 := by
  unfold val_main_v11 val_main_v10
  exact (colVec_apply 1 (val_main_v7 (F := Ideal) x0) _ _ n (1 : Fin 4) rfl).trans (quat_apply x0 n 1)
theorem y_apply (x0 : FVec Ideal S4000000x4 .f32) (n : Fin 4000000) :
    val_main_v13 (F := Ideal) x0 (ix1 n) = quat (row4 x0 n) 2 := by
  unfold val_main_v13 val_main_v12
  exact (colVec_apply 2 (val_main_v7 (F := Ideal) x0) _ _ n (2 : Fin 4) rfl).trans (quat_apply x0 n 2)
theorem z_apply (x0 : FVec Ideal S4000000x4 .f32) (n : Fin 4000000) :
    val_main_v15 (F := Ideal) x0 (ix1 n) = quat (row4 x0 n) 3 := by
  unfold val_main_v15 val_main_v14
  exact (colVec_apply 3 (val_main_v7 (F := Ideal) x0) _ _ n (3 : Fin 4) rfl).trans (quat_apply x0 n 3)

end Cert.ReferenceIdeal.RowValue

end
-- ==== Proof.RefRot.lean ====
/-
  The reference's matrix, read at an index.

  From the four component vectors the reference forms the nine entry vectors of the matrix, keeps each as a
  column, joins them three by three into the rows [n, j] and stacks the rows into R [n, i, j]: entry (n, i, j) is
  entry (i, j) of the matrix of row n.
-/
import proofs.«165751_j59493886984835_1_alg».proof.Proof.RefQuat
import proofs.«165751_j59493886984835_1_alg».proof.Proof.RotOps
import Idealize.ShloMosaic.Lib.Pipeline.Value
import Idealize.ShloMosaic.Lib.ValueIdx

noncomputable section

open scoped BigOperators

namespace Cert.ReferenceIdeal.RowValue

open Cert.ReferenceIdeal Cert.ReferenceIdeal.Gen Cert.ReferenceIdeal.Read Idealize.ShloMosaic Idealize.ShloMosaic.ValueIdx
open Cert.Cov3d Cert.Lib.Columns

variable (x0 : FVec Ideal S4000000x4 .f32) (n : Fin 4000000)

/-- The matrix of row n. -/
abbrev Rn : Fin 3 → Fin 3 → EReal := rotOf (row4 x0 n)

abbrev Wv := val_main_v9 (F := Ideal) x0
abbrev Xv := val_main_v11 (F := Ideal) x0
abbrev Yv := val_main_v13 (F := Ideal) x0
abbrev Zv := val_main_v15 (F := Ideal) x0

/-! ## The nine entry vectors -/

theorem r00_apply : val_main_v22 (F := Ideal) x0 (ix1 n) = Rn x0 n 0 0 := by
  unfold val_main_v22 val_main_v20 val_main_v18 val_main_v16 val_main_v17
  exact (diag_at _ _ (ix1 n) (Yv x0) (Zv x0) _ _ (val_main_v21_apply (F := Ideal) (ix1 n))
    (val_main_v19_apply (F := Ideal) (ix1 n)) (y_apply x0 n) (z_apply x0 n)).trans (rot00 _ _ _ _).symm
theorem r01_apply : val_main_v27 (F := Ideal) x0 (ix1 n) = Rn x0 n 0 1 := by
  unfold val_main_v27 val_main_v25 val_main_v23 val_main_v24
  exact (offMinus_at _ (ix1 n) (Xv x0) (Yv x0) (Wv x0) (Zv x0) _ _ _ _ (val_main_v26_apply (F := Ideal) (ix1 n))
    (x_apply x0 n) (y_apply x0 n) (w_apply x0 n) (z_apply x0 n)).trans (rot01 _ _ _ _).symm
theorem r02_apply : val_main_v32 (F := Ideal) x0 (ix1 n) = Rn x0 n 0 2 := by
  unfold val_main_v32 val_main_v30 val_main_v28 val_main_v29
  exact (offPlus_at _ (ix1 n) (Xv x0) (Zv x0) (Wv x0) (Yv x0) _ _ _ _ (val_main_v31_apply (F := Ideal) (ix1 n))
    (x_apply x0 n) (z_apply x0 n) (w_apply x0 n) (y_apply x0 n)).trans (rot02 _ _ _ _).symm
theorem r10_apply : val_main_v41 (F := Ideal) x0 (ix1 n) = Rn x0 n 1 0 := by
  unfold val_main_v41 val_main_v39 val_main_v37 val_main_v38
  exact (offPlus_at _ (ix1 n) (Xv x0) (Yv x0) (Wv x0) (Zv x0) _ _ _ _ (val_main_v40_apply (F := Ideal) (ix1 n))
    (x_apply x0 n) (y_apply x0 n) (w_apply x0 n) (z_apply x0 n)).trans (rot10 _ _ _ _).symm
theorem r11_apply : val_main_v48 (F := Ideal) x0 (ix1 n) = Rn x0 n 1 1 := by
  unfold val_main_v48 val_main_v46 val_main_v44 val_main_v42 val_main_v43
  exact (diag_at _ _ (ix1 n) (Xv x0) (Zv x0) _ _ (val_main_v47_apply (F := Ideal) (ix1 n))
    (val_main_v45_apply (F := Ideal) (ix1 n)) (x_apply x0 n) (z_apply x0 n)).trans (rot11 _ _ _ _).symm
theorem r12_apply : val_main_v53 (F := Ideal) x0 (ix1 n) = Rn x0 n 1 2 := by
  unfold val_main_v53 val_main_v51 val_main_v49 val_main_v50
  exact (offMinus_at _ (ix1 n) (Yv x0) (Zv x0) (Wv x0) (Xv x0) _ _ _ _ (val_main_v52_apply (F := Ideal) (ix1 n))
    (y_apply x0 n) (z_apply x0 n) (w_apply x0 n) (x_apply x0 n)).trans (rot12 _ _ _ _).symm
theorem r20_apply : val_main_v62 (F := Ideal) x0 (ix1 n) = Rn x0 n 2 0 := by
  unfold val_main_v62 val_main_v60 val_main_v58 val_main_v59
  exact (offMinus_at _ (ix1 n) (Xv x0) (Zv x0) (Wv x0) (Yv x0) _ _ _ _ (val_main_v61_apply (F := Ideal) (ix1 n))
    (x_apply x0 n) (z_apply x0 n) (w_apply x0 n) (y_apply x0 n)).trans (rot20 _ _ _ _).symm
theorem r21_apply : val_main_v67 (F := Ideal) x0 (ix1 n) = Rn x0 n 2 1 := by
  unfold val_main_v67 val_main_v65 val_main_v63 val_main_v64
  exact (offPlus_at _ (ix1 n) (Yv x0) (Zv x0) (Wv x0) (Xv x0) _ _ _ _ (val_main_v66_apply (F := Ideal) (ix1 n))
    (y_apply x0 n) (z_apply x0 n) (w_apply x0 n) (x_apply x0 n)).trans (rot21 _ _ _ _).symm
theorem r22_apply : val_main_v74 (F := Ideal) x0 (ix1 n) = Rn x0 n 2 2 := by
  unfold val_main_v74 val_main_v72 val_main_v70 val_main_v68 val_main_v69
  exact (diag_at _ _ (ix1 n) (Xv x0) (Yv x0) _ _ (val_main_v73_apply (F := Ideal) (ix1 n))
    (val_main_v71_apply (F := Ideal) (ix1 n)) (x_apply x0 n) (y_apply x0 n)).trans (rot22 _ _ _ _).symm

/-! ## The rows and the stacked matrix -/

/-- An entry vector kept as a column, read at (n, 0), is its element n. -/
theorem keptCol (v : FVec Ideal S4000000 .f32) :
    broadcastInDim S4000000x1 ![0] bcast_S4000000_S4000000x1_0 v (ix2 n (0 : Fin 1)) = v (ix1 n) :=
  broadcastInDim_apply _ bcast_S4000000_S4000000x1_0 v (ix2 n (0 : Fin 1)) (ix1 n) (fun a => match a with
    | ⟨0, _⟩ => by show n.val = if (4000000 : Nat) = 1 then 0 else n.val; rw [if_neg (by decide)])

/-- Three entry columns side by side, read at (n, j): the j-th of them at row n. -/
theorem joined3 (c0 c1 c2 : FVec Ideal S4000000x1 .f32) (j : Fin 3) (v : FVec Ideal S4000000x1 .f32)
    (hj : [(⟨S4000000x1, c0⟩ : (s : Shape) × (s.Idx → EReal)), ⟨S4000000x1, c1⟩, ⟨S4000000x1, c2⟩][j.val]'(j.isLt)
      = ⟨S4000000x1, v⟩)
    (hpre : ((([(⟨S4000000x1, c0⟩ : (s : Shape) × (s.Idx → EReal)), ⟨S4000000x1, c1⟩, ⟨S4000000x1, c2⟩].take j.val).map (·.1)).map
      fun s => if h : s.rank = (⟨2, ![4000000, 3]⟩ : Shape).rank then s.size ((1 : Fin 2).cast h.symm) else 0).sum = j.val) :
    concatenate S4000000x3 1 [⟨S4000000x1, c0⟩, ⟨S4000000x1, c1⟩, ⟨S4000000x1, c2⟩]
      concatenates_S4000000x1_S4000000x1_S4000000x1_S4000000x3_d1 (ix2 n j) = v (ix2 n (0 : Fin 1)) :=
  joinCols_apply [⟨S4000000x1, c0⟩, ⟨S4000000x1, c1⟩, ⟨S4000000x1, c2⟩]
    concatenates_S4000000x1_S4000000x1_S4000000x1_S4000000x3_d1 n j j.isLt v hj hpre

/-- Row 0 of the matrix at (n, j). -/
theorem row0_apply (j : Fin 3) : val_main_v36 (F := Ideal) x0 (ix2 n j) = Rn x0 n 0 j := by
  unfold val_main_v36 val_main_v33 val_main_v34 val_main_v35
  match j with
  | ⟨0, _⟩ => exact (joined3 n _ _ _ (0 : Fin 3) _ rfl rfl).trans ((keptCol n _).trans (r00_apply x0 n))
  | ⟨1, _⟩ => exact (joined3 n _ _ _ (1 : Fin 3) _ rfl rfl).trans ((keptCol n _).trans (r01_apply x0 n))
  | ⟨2, _⟩ => exact (joined3 n _ _ _ (2 : Fin 3) _ rfl rfl).trans ((keptCol n _).trans (r02_apply x0 n))
/-- Row 1 of the matrix at (n, j). -/
theorem row1_apply (j : Fin 3) : val_main_v57 (F := Ideal) x0 (ix2 n j) = Rn x0 n 1 j := by
  unfold val_main_v57 val_main_v54 val_main_v55 val_main_v56
  match j with
  | ⟨0, _⟩ => exact (joined3 n _ _ _ (0 : Fin 3) _ rfl rfl).trans ((keptCol n _).trans (r10_apply x0 n))
  | ⟨1, _⟩ => exact (joined3 n _ _ _ (1 : Fin 3) _ rfl rfl).trans ((keptCol n _).trans (r11_apply x0 n))
  | ⟨2, _⟩ => exact (joined3 n _ _ _ (2 : Fin 3) _ rfl rfl).trans ((keptCol n _).trans (r12_apply x0 n))
/-- Row 2 of the matrix at (n, j). -/
theorem row2_apply (j : Fin 3) : val_main_v78 (F := Ideal) x0 (ix2 n j) = Rn x0 n 2 j := by
  unfold val_main_v78 val_main_v75 val_main_v76 val_main_v77
  match j with
  | ⟨0, _⟩ => exact (joined3 n _ _ _ (0 : Fin 3) _ rfl rfl).trans ((keptCol n _).trans (r20_apply x0 n))
  | ⟨1, _⟩ => exact (joined3 n _ _ _ (1 : Fin 3) _ rfl rfl).trans ((keptCol n _).trans (r21_apply x0 n))
  | ⟨2, _⟩ => exact (joined3 n _ _ _ (2 : Fin 3) _ rfl rfl).trans ((keptCol n _).trans (r22_apply x0 n))

/-- A row kept as a slab [n, 1, 3], read at (n, 0, j), is its entry (n, j). -/
theorem keptSlab (v : FVec Ideal S4000000x3 .f32) (j : Fin 3) :
    broadcastInDim S4000000x1x3 ![0, 2] bcast_S4000000x3_S4000000x1x3_0_2 v (ix3 n (0 : Fin 1) j) = v (ix2 n j) :=
  broadcastInDim_apply _ bcast_S4000000x3_S4000000x1x3_0_2 v (ix3 n (0 : Fin 1) j) (ix2 n j) (fun a => match a with
    | ⟨0, _⟩ => by show n.val = if (4000000 : Nat) = 1 then 0 else n.val; rw [if_neg (by decide)]
    | ⟨1, _⟩ => by show j.val = if (3 : Nat) = 1 then 0 else j.val; rw [if_neg (by decide)])

/-- Three slabs stacked along the middle axis, read at (n, i, j): the i-th of them at (n, 0, j). -/
theorem stacked3 (s0 s1 s2 : FVec Ideal S4000000x1x3 .f32) (i j : Fin 3) (v : FVec Ideal S4000000x1x3 .f32)
    (hi : [(⟨S4000000x1x3, s0⟩ : (s : Shape) × (s.Idx → EReal)), ⟨S4000000x1x3, s1⟩, ⟨S4000000x1x3, s2⟩][i.val]'(i.isLt)
      = ⟨S4000000x1x3, v⟩)
    (hpre : ((([(⟨S4000000x1x3, s0⟩ : (s : Shape) × (s.Idx → EReal)), ⟨S4000000x1x3, s1⟩, ⟨S4000000x1x3, s2⟩].take i.val).map (·.1)).map
      fun s => if h : s.rank = (⟨3, ![4000000, 3, 3]⟩ : Shape).rank then s.size ((1 : Fin 3).cast h.symm) else 0).sum = i.val) :
    concatenate S4000000x3x3 1 [⟨S4000000x1x3, s0⟩, ⟨S4000000x1x3, s1⟩, ⟨S4000000x1x3, s2⟩]
      concatenates_S4000000x1x3_S4000000x1x3_S4000000x1x3_S4000000x3x3_d1 (ix3 n i j) = v (ix3 n (0 : Fin 1) j) :=
  joinSlabs_apply [⟨S4000000x1x3, s0⟩, ⟨S4000000x1x3, s1⟩, ⟨S4000000x1x3, s2⟩]
    concatenates_S4000000x1x3_S4000000x1x3_S4000000x1x3_S4000000x3x3_d1 n i j i.isLt v hi hpre

/-- The matrix R [n, i, j]: entry (n, i, j) is entry (i, j) of the matrix of row n. -/
theorem rot_apply (i j : Fin 3) : val_main_v82 (F := Ideal) x0 (ix3 n i j) = Rn x0 n i j := by
  unfold val_main_v82 val_main_v79 val_main_v80 val_main_v81
  match i with
  | ⟨0, _⟩ => exact (stacked3 n _ _ _ (0 : Fin 3) j _ rfl rfl).trans ((keptSlab n _ j).trans (row0_apply x0 n j))
  | ⟨1, _⟩ => exact (stacked3 n _ _ _ (1 : Fin 3) j _ rfl rfl).trans ((keptSlab n _ j).trans (row1_apply x0 n j))
  | ⟨2, _⟩ => exact (stacked3 n _ _ _ (2 : Fin 3) j _ rfl rfl).trans ((keptSlab n _ j).trans (row2_apply x0 n j))

end Cert.ReferenceIdeal.RowValue

end
-- ==== Proof.RefGram.lean ====
/-
  The reference's result, read at an index.

  The reference scales column j of the matrix R [n, i, j] by e_j = exp σ_nj, M = R · diag e, and contracts M with
  itself over j: entry (n, i, k) is ∑_j M_nij M_nkj, entry (i, k) of M Mᵀ for row n. Pulling the squared scale out
  of each term, (R_ij e_j)(R_kj e_j) = (R_ij R_kj)(e_j e_j), makes it the covariance entry of the specification; the
  step uses only that the product is commutative and associative, so it holds on all extended reals.
-/
import proofs.«165751_j59493886984835_1_alg».proof.Proof.RefRot
import Idealize.ShloMosaic.Lib.Pipeline.Value
import Idealize.ShloMosaic.Lib.ValueIdx
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic Idealize.ShloMosaic.ValueIdx
open Cert.Cov3d Cert.Lib.Columns

variable (x0 : FVec Ideal S4000000x4 .f32) (x1 : FVec Ideal S4000000x3 .f32) (n : Fin 4000000)

/-- The scales of row n. -/
abbrev en : Fin 3 → EReal := fun j => Ideal.exp (row3 x1 n j)

/-- The scales broadcast over i: entry (n, i, j) is exp σ_nj. -/
theorem scale_apply (i j : Fin 3) : val_main_v85 (F := Ideal) x1 (ix3 n i j) = en x1 n j := by
  have e85 : idx_main_v85 (ix3 n i j) = ix3 n (0 : Fin 1) j :=
    funext fun d => Fin.ext (by match d with | ⟨0, _⟩ => rfl | ⟨1, _⟩ => rfl | ⟨2, _⟩ => rfl)
  refine (val_main_v85_apply (F := Ideal) x1 (ix3 n i j)).trans
    ((congrArg (val_main_v84 (F := Ideal) x1) e85).trans ?_)
  unfold val_main_v84 val_main_v83
  exact (keptSlab n _ j).trans (hostExp_at x1 (ix2 n j) _ rfl)

/-- The scaled matrix M = R · diag e at (n, i, j). -/
theorem scaled_apply (i j : Fin 3) :
    val_main_v86 (F := Ideal) x0 x1 (ix3 n i j) = Rn x0 n i j * en x1 n j := by
  unfold val_main_v86
  exact mul_at _ _ (ix3 n i j) _ _ (rot_apply x0 n i j) (scale_apply x1 n i j)

/-- The contraction: entry (n, i, k) is entry (i, k) of M Mᵀ for row n. -/
theorem gram_apply (i k : Fin 3) :
    val_main_v87 (F := Ideal) x0 x1 (ix3 n i k) = gram (Rn x0 n) (en x1 n) i k := by
  refine (val_main_v87_apply x0 x1 (ix3 n i k)).trans ?_
  unfold gram
  refine Finset.sum_congr rfl fun j _ => ?_
  have el : lidx_main_v87 (ix3 n i k) j = ix3 n i j :=
    funext fun d => Fin.ext (by match d with | ⟨0, _⟩ => rfl | ⟨1, _⟩ => rfl | ⟨2, _⟩ => rfl)
  have er : ridx_main_v87 (ix3 n i k) j = ix3 n k j :=
    funext fun d => Fin.ext (by match d with | ⟨0, _⟩ => rfl | ⟨1, _⟩ => rfl | ⟨2, _⟩ => rfl)
  rw [el, er]
  exact mul2 (scaled_apply x0 x1 n i j) (scaled_apply x0 x1 n k j)

/-- Entry (n, i, k) of the reference's result is the covariance entry (i, k) of row n. -/
theorem result_apply (i k : Fin 3) :
    val_main_v87 (F := Ideal) x0 x1 (ix3 n i k) = covAt x0 x1 n i k :=
  (gram_apply x0 x1 n i k).trans (gram_eq_gramSq _ _ i k)

/-- The reference's result is the covariance array of the specification. -/
theorem result_eq : val_main_v87 (F := Ideal) x0 x1 = G x0 x1 := by
  funext j
  rw [eq_ix3 j]
  exact result_apply x0 x1 (j 0) (j 1) (j 2)

end Cert.ReferenceIdeal.RowValue

end
-- ==== Proof.lean ====
/-
  The covariance of four million scaled rotations: a tiled kernel against its array-level reference.

  Both programs take rotations r [4000000, 4] and log-scales σ [4000000, 3] and return Σ [4000000, 3, 3]. Row by
  row, r is normalized to a quaternion q = r / max(‖r‖, ε), R(q) is its 3×3 matrix, e = exp σ, and Σ = M Mᵀ for
  M = R · diag e. The reference forms M and contracts it with itself, Σ_ik = ∑_j (R_ij e_j)(R_kj e_j). The kernel
  works through the rows in 40 blocks of 100000; it never forms M but sums (R_ij R_kj)(e_j e_j) over j for the six
  pairs i ≤ k, writes each off-diagonal sum to both of its places in a row of nine, and the nine are reshaped
  three by three afterwards. The two agree because (a·s)(b·s) = (a·b)(s·s) on the extended reals, by commutativity
  and associativity of the product alone, and because the pulled-out sum is symmetric in (i, k); neither step
  needs an entry to be finite, so the precondition is not used. Every literal (ε, one, two) is the same word in
  both programs and is never evaluated.

  The frames of the two kernel programs are the generated ones; the reference's is its generated run with the
  result dropped. The idealization rewrote nothing, so there is nothing to preserve.
-/
import proofs.«165751_j59493886984835_1_alg».proof.Defs
import proofs.«165751_j59493886984835_1_alg».proof.Proof.Gen.Kernel
import proofs.«165751_j59493886984835_1_alg».proof.Proof.Gen.Kernel.Skeleton
import proofs.«165751_j59493886984835_1_alg».proof.Proof.Gen.Kernel.Launch
import proofs.«165751_j59493886984835_1_alg».proof.Proof.Gen.Kernel.Points
import proofs.«165751_j59493886984835_1_alg».proof.Proof.Gen.Kernel.Frame
import proofs.«165751_j59493886984835_1_alg».proof.Proof.Gen.KernelIdeal
import proofs.«165751_j59493886984835_1_alg».proof.Proof.Gen.KernelIdeal.Skeleton
import proofs.«165751_j59493886984835_1_alg».proof.Proof.Gen.KernelIdeal.Launch
import proofs.«165751_j59493886984835_1_alg».proof.Proof.Gen.KernelIdeal.Points
import proofs.«165751_j59493886984835_1_alg».proof.Proof.Gen.KernelIdeal.Frame
import proofs.«165751_j59493886984835_1_alg».proof.Proof.Gen.ReferenceIdeal
import proofs.«165751_j59493886984835_1_alg».proof.Proof.Gen.ReferenceIdeal.Run
import proofs.«165751_j59493886984835_1_alg».proof.Proof.Gen.ReferenceIdeal.Read
import proofs.«165751_j59493886984835_1_alg».proof.Proof.Gen.Pre_finite_inputs
import proofs.«165751_j59493886984835_1_alg».proof.Proof.KernelRun
import proofs.«165751_j59493886984835_1_alg».proof.Proof.RefGram
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the covariance array of their arguments; the arguments agree, so the results do. -/
theorem algebraic : Cert.algebraic_KernelIdeal_ReferenceIdeal := by
  intro m ρ m' ρ' _ hagree
  refine ⟨fun c => Cert.Cov3d.G (Cert.KernelIdeal.ArrayValue.A0 m c) (Cert.KernelIdeal.ArrayValue.A1 m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, Cert.ReferenceIdeal.RowValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
